-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S16384x512 : Shape := ⟨2, ![16384, 512]⟩
abbrev S16384 : Shape := ⟨1, ![16384]⟩
abbrev S256x512 : Shape := ⟨2, ![256, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384 : S_.BroadcastsInDim S16384 (![] : Fin 0 → Fin S16384.rank)
  reducesTo_S16384_S_d0 : S16384.ReducesTo [0] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S4096x512 .f32) (main_arg1 : FVec F S16384x512 .f32) (main_arg2 : FVec F S16384 .f32) (main_arg3 : FVec F S256x512 .f32) (main_arg4 : IVec S16384 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_v13 main_v16
-- ==== Kernel.lean ====
abbrev S4096x512 : Shape := ⟨2, ![4096, 512]⟩
abbrev S16384x512 : Shape := ⟨2, ![16384, 512]⟩
abbrev S16384 : Shape := ⟨1, ![16384]⟩
abbrev S256x512 : Shape := ⟨2, ![256, 512]⟩
abbrev S512x256 : Shape := ⟨2, ![512, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256 : Shape := ⟨1, ![256]⟩
abbrev S16384x1 : Shape := ⟨2, ![16384, 1]⟩
abbrev S1x16384 : Shape := ⟨2, ![1, 16384]⟩
abbrev S4096x16384 : Shape := ⟨2, ![4096, 16384]⟩
abbrev S1024x512 : Shape := ⟨2, ![1024, 512]⟩
abbrev S1x1024 : Shape := ⟨2, ![1, 1024]⟩
abbrev S4096x1024 : Shape := ⟨2, ![4096, 1024]⟩

abbrev nBuf : Space → Nat
  | .hbm => 46
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S16384, .f32⟩
  | .hbm, ⟨3, _⟩ => ⟨S256x512, .f32⟩
  | .hbm, ⟨4, _⟩ => ⟨S16384, .i32⟩
  | .hbm, ⟨5, _⟩ => ⟨S512x256, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096x256, .f32⟩
  | .hbm, ⟨26, _⟩ => ⟨S4096x256, .i1⟩
  | .hbm, ⟨27, _⟩ => ⟨S_, .i1⟩
  | .hbm, ⟨28, _⟩ => ⟨S4096, .i1⟩
  | .hbm, ⟨29, _⟩ => ⟨S4096, .f32⟩
  | .hbm, ⟨30, _⟩ => ⟨S4096x1, .f32⟩
  | .hbm, ⟨31, _⟩ => ⟨S_, .i1⟩
  | .hbm, ⟨32, _⟩ => ⟨S256, .i1⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384, .i1⟩
  | .hbm, ⟨42, _⟩ => ⟨S16384, .f32⟩
  | .hbm, ⟨43, _⟩ => ⟨S1x16384, .f32⟩
  | .hbm, ⟨44, _⟩ => ⟨S1x16384, .f32⟩
  | .hbm, ⟨45, _⟩ => ⟨S4096x16384, .f32⟩
  | .local _ .vmem, ⟨0, _⟩ => ⟨S4096x512, .f32⟩
  | .local _ .vmem, ⟨1, _⟩ => ⟨S1024x512, .f32⟩
  | .local _ .vmem, ⟨2, _⟩ => ⟨S1024x512, .f32⟩
  | .local _ .vmem, ⟨3, _⟩ => ⟨S1x1024, .f32⟩
  | .local _ .vmem, ⟨4, _⟩ => ⟨S1x1024, .f32⟩
  | .local _ .vmem, ⟨5, _⟩ => ⟨S4096x1, .f32⟩
  | .local _ .vmem, ⟨6, _⟩ => ⟨S1x1024, .f32⟩
  | .local _ .vmem, ⟨7, _⟩ => ⟨S1x1024, .f32⟩
  | .local _ .vmem, ⟨8, _⟩ => ⟨S4096x1024, .f32⟩
  | .local _ .vmem, ⟨9, _⟩ => ⟨S4096x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x512_S512x256_1_0 : S256x512.Transposes [1, 0] S512x256
  bcast_S_S4096x256 : S_.BroadcastsInDim S4096x256 (![] : Fin 0 → Fin S4096x256.rank)
  reducesTo_S4096x256_S4096_d1 : S4096x256.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  shapeCasts_S4096_S4096x1 : S4096.ShapeCasts S4096x1
  reducesTo_S4096x256_S256_d0 : S4096x256.ReducesTo [0] S256
  bcast_S_S16384 : S_.BroadcastsInDim S16384 (![] : Fin 0 → Fin S16384.rank)
  bcast_S16384_S16384x1_0 : S16384.BroadcastsInDim S16384x1 (![0] : Fin 1 → Fin S16384x1.rank)
  shapeCasts_S16384_S1x16384 : S16384.ShapeCasts S1x16384
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4096x1024 : S1x1024.Broadcasts S4096x1024
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1024 : S4096x1.Broadcasts S4096x1024
  inb_S4096x1024_S4096x1024_0_0 : ∀ a, (![0, 0] : Fin 2 → Nat) a + S4096x1024.size a ≤ S4096x1024.size a
  h_S4096x1024 : 0 < S4096x1024.numel
  dot_S4096x512_S512x256_S4096x256_1_0_0_1_n_n_wf : DotDims.WF S4096x512 S512x256 S4096x256 [1] [0] [0] [1] [] []
  gather_S256_S16384x1_S16384_n_0_n_n_0_1_1_wf : GatherDims.WF S256 S16384x1 S16384 [] [0] [] [0] [] 1 ![1]
  dot_S4096x512_S1024x512_S4096x1024_1_1_0_0_n_n_wf : DotDims.WF S4096x512 S1024x512 S4096x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S4096x1.size a
  hwx0_3 : ∀ i : grid0.Coords, EltTy.bits .f32 = 32 ∨ (Rect.block (s := S4096x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x16384.size a
  hwx0_4 : ∀ i : grid0.Coords, EltTy.bits .f32 = 32 ∨ (Rect.block (s := S1x16384) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x16384.size a
  hwx0_5 : ∀ i : grid0.Coords, EltTy.bits .f32 = 32 ∨ (Rect.block (s := S4096x16384) S4096x1024.size (cc0_transform_5 i) (hinb0_5 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def gather_S256_S16384x1_S16384_n_0_n_n_0_1_1 : GatherDims S256 S16384x1 S16384 where
  offsetDims := []
  collapsedSliceDims := [0]
  operandBatchingDims := []
  startIndicesBatchingDims := []
  startIndexMap := [0]
  indexVectorDim := 1
  sliceSizes := ![1]
  wf := gather_S256_S16384x1_S16384_n_0_n_n_0_1_1_wf
def dot_S4096x512_S1024x512_S4096x1024_1_1_0_0_n_n : DotDims S4096x512 S1024x512 S4096x1024 where
  lhsContracting := [1]
  rhsContracting := [1]
  lhsNonContracting := [0]
  rhsNonContracting := [0]
  lhsBatch := []
  rhsBatch := []
  wf := dot_S4096x512_S1024x512_S4096x1024_1_1_0_0_n_n_wf

abbrev win0_0 : Pipeline.Window sig grid0 :=
  Pipeline.Window.ofSpec (Memref.whole main_arg0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4096x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31) S4096x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x512 : Shape := ⟨2, ![4096, 512]⟩
abbrev S16384x512 : Shape := ⟨2, ![16384, 512]⟩
abbrev S16384 : Shape := ⟨1, ![16384]⟩
abbrev S256x512 : Shape := ⟨2, ![256, 512]⟩
abbrev S512x256 : Shape := ⟨2, ![512, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256 : Shape := ⟨1, ![256]⟩
abbrev S16384x1 : Shape := ⟨2, ![16384, 1]⟩
abbrev S512x16384 : Shape := ⟨2, ![512, 16384]⟩
abbrev S4096x16384 : Shape := ⟨2, ![4096, 16384]⟩
abbrev S1x16384 : Shape := ⟨2, ![1, 16384]⟩

abbrev nBuf : Space → Nat
  | .hbm => 53
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S16384x512, .f32⟩
  | .hbm, ⟨2, _⟩ => ⟨S16384, .f32⟩
  | .hbm, ⟨3, _⟩ => ⟨S256x512, .f32⟩
  | .hbm, ⟨4, _⟩ => ⟨S16384, .i32⟩
  | .hbm, ⟨5, _⟩ => ⟨S512x256, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096x256, .f32⟩
  | .hbm, ⟨26, _⟩ => ⟨S4096x256, .i1⟩
  | .hbm, ⟨27, _⟩ => ⟨S_, .i1⟩
  | .hbm, ⟨28, _⟩ => ⟨S4096, .i1⟩
  | .hbm, ⟨29, _⟩ => ⟨S_, .i1⟩
  | .hbm, ⟨30, _⟩ => ⟨S256, .i1⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384, .i1⟩
  | .hbm, ⟨40, _⟩ => ⟨S512x16384, .f32⟩
  | .hbm, ⟨41, _⟩ => ⟨S4096x16384, .f32⟩
  | .hbm, ⟨42, _⟩ => ⟨S1x16384, .f32⟩
  | .hbm, ⟨43, _⟩ => ⟨S4096x16384, .f32⟩
  | .hbm, ⟨44, _⟩ => ⟨S4096x16384, .f32⟩
  | .hbm, ⟨45, _⟩ => ⟨S4096x1, .i1⟩
  | .hbm, ⟨46, _⟩ => ⟨S4096x1, .f32⟩
  | .hbm, ⟨47, _⟩ => ⟨S4096x16384, .f32⟩
  | .hbm, ⟨48, _⟩ => ⟨S4096x16384, .f32⟩
  | .hbm, ⟨49, _⟩ => ⟨S1x16384, .i1⟩
  | .hbm, ⟨50, _⟩ => ⟨S1x16384, .f32⟩
  | .hbm, ⟨51, _⟩ => ⟨S4096x16384, .f32⟩
  | .hbm, ⟨52, _⟩ => ⟨S4096x16384, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  transposes_S256x512_S512x256_1_0 : S256x512.Transposes [1, 0] S512x256
  bcast_S_S4096x256 : S_.BroadcastsInDim S4096x256 (![] : Fin 0 → Fin S4096x256.rank)
  reducesTo_S4096x256_S4096_d1 : S4096x256.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  reducesTo_S4096x256_S256_d0 : S4096x256.ReducesTo [0] S256
  bcast_S_S16384 : S_.BroadcastsInDim S16384 (![] : Fin 0 → Fin S16384.rank)
  bcast_S16384_S16384x1_0 : S16384.BroadcastsInDim S16384x1 (![0] : Fin 1 → Fin S16384x1.rank)
  transposes_S16384x512_S512x16384_1_0 : S16384x512.Transposes [1, 0] S512x16384
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S4096x1_S4096x16384_0_1 : S4096x1.BroadcastsInDim S4096x16384 (![0, 1] : Fin 2 → Fin S4096x16384.rank)
  dot_S4096x512_S512x256_S4096x256_1_0_0_1_n_n_wf : DotDims.WF S4096x512 S512x256 S4096x256 [1] [0] [0] [1] [] []
  gather_S256_S16384x1_S16384_n_0_n_n_0_1_1_wf : GatherDims.WF S256 S16384x1 S16384 [] [0] [] [0] [] 1 ![1]
  dot_S4096x512_S512x16384_S4096x16384_1_0_0_1_n_n_wf : DotDims.WF S4096x512 S512x16384 S4096x16384 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def gather_S256_S16384x1_S16384_n_0_n_n_0_1_1 : GatherDims S256 S16384x1 S16384 where
  offsetDims := []
  collapsedSliceDims := [0]
  operandBatchingDims := []
  startIndicesBatchingDims := []
  startIndexMap := [0]
  indexVectorDim := 1
  sliceSizes := ![1]
  wf := gather_S256_S16384x1_S16384_n_0_n_n_0_1_1_wf
def dot_S4096x512_S512x16384_S4096x16384_1_0_0_1_n_n : DotDims S4096x512 S512x16384 S4096x16384 where
  lhsContracting := [1]
  rhsContracting := [0]
  lhsNonContracting := [0]
  rhsNonContracting := [1]
  lhsBatch := []
  rhsBatch := []
  wf := dot_S4096x512_S512x16384_S4096x16384_1_0_0_1_n_n_wf

class Facts : Prop extends Facts₀ where

variable [Facts]
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibTransposedDot.lean ====
/-
  A matrix product with the right operand transposed, read at an entry. For the dimension numbers of an [M, K] by
  [N, K] product (no batch axis, both operands contracted on their last axis) the entry (p, q) of the product is
  ∑ₖ l(p, k) · r(q, k) over k : Fin K — for a tpu.matmul into the zero accumulator and for the host's dot_general alike,
  at the ideal values. General in the three extents and in the operands' formats; a printed record of these dimension
  numbers is DotDims.transposedRhs M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem transposedRhs_lhs_row {M K N : ℕ} (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row is the output's column, whatever the contraction index. -/
theorem transposedRhs_rhs_row {M K N : ℕ} (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (p, q) and contraction coordinate k is (p, k). -/
theorem transposedRhs_lhsIdx {M K N : ℕ} (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => exact transposedRhs_lhs_row (ix2 p q) _
  | ⟨1, _⟩ => exact ((DotDims.transposedRhs M K N).lhsIdx_val_of_single (cl := (1 : Fin 2)) rfl (ix2 p q) _).trans hk

/-- The right operand's index at output (p, q) and contraction coordinate k is (q, k). -/
theorem transposedRhs_rhsIdx {M K N : ℕ} (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => exact transposedRhs_rhs_row (ix2 p q) _
  | ⟨1, _⟩ => exact ((DotDims.transposedRhs M K N).rhsIdx_val_of_single (cr := (1 : Fin 2)) rfl (ix2 p q) _).trans hk

/-- The product's sum over the contraction index, re-indexed by the contracted coordinate. -/
theorem sum_transposedRhs {M K N : ℕ} (l : (⟨2, ![M, K]⟩ : Shape).Idx → EReal) (r : (⟨2, ![N, K]⟩ : Shape).Idx → EReal)
    (p : Fin M) (q : Fin N) :
    ∑ k : (DotDims.transposedRhs M K N).contr.Idx,
        l ((DotDims.transposedRhs M K N).lhsIdx (ix2 p q) k) * r ((DotDims.transposedRhs M K N).rhsIdx (ix2 p q) k)
      = ∑ k : Fin K, l (ix2 p k) * r (ix2 q k) := by
  rw [← Equiv.sum_comp (contrEquiv1 (DotDims.transposedRhs M K N) K rfl rfl).symm]
  exact Finset.sum_congr rfl fun k _ => by rw [transposedRhs_lhsIdx, transposedRhs_rhsIdx]

/-- A tpu.matmul of these dimension numbers into the zero accumulator, at entry (p, q). -/
theorem matmul_transposedRhs_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  exact (Ideal.matmul_constant_zero_apply _ prec lhs rhs (ix2 p q)).trans (sum_transposedRhs lhs rhs p q)

/-- The host's dot_general of these dimension numbers, at entry (p, q). -/
theorem dotGeneral_transposedRhs_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  exact (Ideal.dotGeneral_apply _ prec sched lhs rhs (ix2 p q)).trans (sum_transposedRhs lhs rhs p q)

end Idealize.ShloMosaic.ValueIdx
-- ==== Proof.BlockPayload.lean ====
/-
  What the kernel body computes for one grid point, read at an entry. The body holds the whole input x (4096 × 512),
  a block of 1024 rows of w, the matching 1024 bias entries and column-mask entries as one-row arrays, and the row
  mask as a column. Entry (p, q) of its result is (∑ₖ x(p, k) · w(q, k) + b(q)) · (rowMask p · colMask q): the narrowing
  of the operands before the product is the identity on ideal values, the product accumulates into zero, and the
  one-row and one-column arrays are spread over the block.
-/
import proofs.«166657_j29128468201623_2_alg».proof.Proof.Gen.KernelIdeal.Skeleton
import proofs.«166657_j29128468201623_2_alg».proof.Proof.LibColumns
import proofs.«166657_j29128468201623_2_alg».proof.Proof.LibTransposedDot
import Idealize.ShloMosaic.Lib.ValueLayout

noncomputable section

namespace Cert.KernelIdeal.BlockPayload

open Cert.KernelIdeal Cert.KernelIdeal.Gen Idealize.ShloMosaic Idealize.ShloMosaic.TcCoe Idealize.ShloMosaic.ValueIdx

/-- Entry (p, q) of the body's result from its five loaded blocks. -/
theorem payload_apply (x : Vec Ideal S4096x512 .f32) (w : Vec Ideal S1024x512 .f32) (b : Vec Ideal S1x1024 .f32)
    (rowMask : Vec Ideal S4096x1 .f32) (colMask : Vec Ideal S1x1024 .f32) (p : Fin 4096) (q : Fin 1024) :
    k0_pay1 x w b rowMask colMask (ix2 p q)
      = ((∑ k : Fin 512, x (ix2 p k) * w (ix2 q k)) + b (ix2 (0 : Fin 1) q))
          * (rowMask (ix2 p (0 : Fin 1)) * colMask (ix2 (0 : Fin 1) q)) := by
  unfold k0_pay1 Idealize.ShloMosaic.matmul
  rw [mulf_apply, addf_apply, mulf_apply, shapeCast_self, shapeCast_self, shapeCast_self,
    broadcastTo_1b_ab_apply, broadcastTo_a1_ab_apply, broadcastTo_1b_ab_apply,
    matmul_transposedRhs_zero_apply dot_S4096x512_S1024x512_S4096x1024_1_1_0_0_n_n rfl]
  rfl

end Cert.KernelIdeal.BlockPayload

end
-- ==== Proof.RegionEntry.lean ====
/-
  What the kernel's three host-written operands hold when the region is entered, read at an entry. The bias is the
  argument vector laid as one row. The row mask is a column: entry p is the row-union bit of the routing decisions
  (is some cluster active for input row p) read as 0 or 1. The column mask is one row: entry n is the bit of the cluster
  that output column n is assigned to (is that cluster active for some input row) read as 0 or 1. The kernel computes
  these bits by the same operations, in the same order, as the reference: the two composed terms are one term, so the
  bits are stated as the reference's stages and their values are never needed.
-/
import proofs.«166657_j29128468201623_2_alg».proof.Proof.Gen.KernelIdeal.Frame
import proofs.«166657_j29128468201623_2_alg».proof.Proof.Gen.ReferenceIdeal.Read
import proofs.«166657_j29128468201623_2_alg».proof.Proof.LibColumns
import Idealize.ShloMosaic.Lib.StableHlo.Run
import Idealize.ShloMosaic.Lib.ValueLayout

noncomputable section

namespace Cert.KernelIdeal.RegionEntry

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-- The row-union bits of the routing decisions, one per input row, from the launched input and centroids. -/
abbrev rowBits (c : Dev nD) : IVec ⟨1, ![4096]⟩ 1 :=
  Cert.ReferenceIdeal.Read.val_main_v17 (F := Ideal) (m ((c : Thread nD τ).loc main_arg0)) (m ((c : Thread nD τ).loc main_arg3))

/-- The assigned cluster's column-union bit, one per output column, from the launched input, centroids and assignment. -/
abbrev colBits (c : Dev nD) : IVec ⟨1, ![16384]⟩ 1 :=
  Cert.ReferenceIdeal.Read.val_main_v25 (F := Ideal) (m ((c : Thread nD τ).loc main_arg0)) (m ((c : Thread nD τ).loc main_arg3))
    (m ((c : Thread nD τ).loc main_arg4))

/-- The bias operand is the bias vector as one row. -/
theorem bias_row (c : Dev nD) :
    (V m c main_v30 : S1x16384.Idx → EReal)
      = shapeCast S1x16384 (m ((c : Thread nD τ).loc main_arg2)) Facts₀.shapeCasts_S16384_S1x16384 := by
  dsimp only [V, hostOps0]
  after_results_simp <;> rfl

set_option maxRecDepth 8192 in
set_option maxHeartbeats 2000000 in
/-- The row-mask operand is the row bits, read as numbers, as a column. -/
theorem rowMask_col (c : Dev nD) :
    (V m c main_v19 : S4096x1.Idx → EReal)
      = shapeCast S4096x1 (uitofp (F := Ideal) .f32 (rowBits m c)) Facts₀.shapeCasts_S4096_S4096x1 := by
  dsimp only [V, hostOps0]
  after_results_simp <;> rfl

set_option maxRecDepth 8192 in
set_option maxHeartbeats 2000000 in
/-- The column-mask operand is the column bits, read as numbers, as one row. -/
theorem colMask_row (c : Dev nD) :
    (V m c main_v29 : S1x16384.Idx → EReal)
      = shapeCast S1x16384 (uitofp (F := Ideal) .f32 (colBits m c)) Facts₀.shapeCasts_S16384_S1x16384 := by
  dsimp only [V, hostOps0]
  after_results_simp <;> rfl

/-- The bias operand at column n is the bias of n. -/
theorem bias_at (c : Dev nD) (n : Fin 16384) :
    V m c main_v30 (ix2 (0 : Fin 1) n) = m ((c : Thread nD τ).loc main_arg2) (ix1 n) :=
  (congrFun (bias_row m c) (ix2 (0 : Fin 1) n)).trans (shapeCast_a_1a_apply _ _ (0 : Fin 1) n)

/-- The row-mask operand at row p is the row bit of p as a number. -/
theorem rowMask_at (c : Dev nD) (p : Fin 4096) :
    V m c main_v19 (ix2 p (0 : Fin 1)) = FloatOps.uitofp (F := Ideal) .f32 (rowBits m c (ix1 p)) :=
  (congrFun (rowMask_col m c) (ix2 p (0 : Fin 1))).trans (shapeCast_a_a1_apply _ _ p (0 : Fin 1))

/-- The column-mask operand at column n is the column bit of n as a number. -/
theorem colMask_at (c : Dev nD) (n : Fin 16384) :
    V m c main_v29 (ix2 (0 : Fin 1) n) = FloatOps.uitofp (F := Ideal) .f32 (colBits m c (ix1 n)) :=
  (congrFun (colMask_row m c) (ix2 (0 : Fin 1) n)).trans (shapeCast_a_1a_apply _ _ (0 : Fin 1) n)

end Cert.KernelIdeal.RegionEntry

end
-- ==== Proof.MaskedLinear.lean ====
/-
  The function both programs compute. Rows of `x` (4096 of them, 512 features each) meet rows of `w` (16384 of
  them): entry (p, n) of the dense layer is ∑ₖ x(p, k) · w(n, k) + b(n). Each entry is then scaled by two masks, one
  value per row p of the input and one per output column n. The kernel scales by the product of the two masks; the
  reference scales by the row mask and then by the column mask. The two agree by associativity of the product on the
  extended reals, which holds whatever the entries are (infinite ones included), so no finiteness is used.
-/
import Idealize.ShloMosaic.PureOps.Ideal
import Idealize.ShloMosaic.Lib.ValueIdx

noncomputable section

namespace Cert.MaskedLinear

open Idealize.ShloMosaic Idealize.ShloMosaic.ValueIdx

/-- The masked dense layer, entry by entry: (∑ₖ x(p, k) · w(n, k) + b(n)) · (rowMask p · colMask n). -/
def maskedLinear (x : FVec Ideal ⟨2, ![4096, 512]⟩ .f32) (w : FVec Ideal ⟨2, ![16384, 512]⟩ .f32)
    (b : FVec Ideal ⟨1, ![16384]⟩ .f32) (rowMask : FVec Ideal ⟨1, ![4096]⟩ .f32) (colMask : FVec Ideal ⟨1, ![16384]⟩ .f32) :
    FVec Ideal ⟨2, ![4096, 16384]⟩ .f32 :=
  fun i => ((∑ k : Fin 512, x (ix2 (i 0) k) * w (ix2 (i 1) k)) + b (ix1 (i 1))) * (rowMask (ix1 (i 0)) * colMask (ix1 (i 1)))

/-- Scaling by the row mask and then by the column mask is scaling by their product. -/
theorem scale_twice (a r c : EReal) : a * r * c = a * (r * c) := mul_assoc a r c

end Cert.MaskedLinear

end
-- ==== Proof.FinalArray.lean ====
/-
  From the blocks to the whole output array. The grid has 16 points; point t computes the 1024 output columns
  t·1024 … t·1024 + 1023 for all 4096 rows. It reads the whole input x and the whole row mask (their one block never
  moves), rows t·1024 … of w, and the matching 1024 entries of the bias row and of the column-mask row. So entry (p, q)
  of point t's block is entry (p, t·1024 + q) of the masked dense layer of the launched arguments. The 16 blocks tile the
  array (column n lies in the block of point n / 1024), so after the run the array is that function everywhere.
-/
import proofs.«166657_j29128468201623_2_alg».proof.Proof.Gen.KernelIdeal.Value
import proofs.«166657_j29128468201623_2_alg».proof.Proof.BlockPayload
import proofs.«166657_j29128468201623_2_alg».proof.Proof.RegionEntry
import proofs.«166657_j29128468201623_2_alg».proof.Proof.MaskedLinear

noncomputable section

namespace Cert.KernelIdeal.FinalArray

open Cert.KernelIdeal Cert.KernelIdeal.Gen Idealize.ShloMosaic Idealize.ShloMosaic.TcCoe Idealize.SL.Sem
  Idealize.ShloMosaic.ValueIdx Cert.MaskedLinear
open Idealize.ShloMosaic.Pipeline (Dat)

variable (m : (ℓ : Loc nD τ sig) → Buf (Elt Ideal) ℓ) (ρ : Dev nD → PrngReg)

/-- Every load and the store of the body start at the origin of their buffer. -/
theorem origin : (![0, 0] : Fin 2 → Nat) = fun _ => 0 := funext fun a => by fin_cases a <;> rfl

/-- The output array as one function of the launched arguments: the masked dense layer, the masks the routing bits
    read as numbers. -/
abbrev result (c : Dev nD) : FVec Ideal ⟨2, ![4096, 16384]⟩ .f32 :=
  maskedLinear (m ((c : Thread nD τ).loc main_arg0)) (m ((c : Thread nD τ).loc main_arg1)) (m ((c : Thread nD τ).loc main_arg2))
    (uitofp (F := Ideal) .f32 (RegionEntry.rowBits m c)) (uitofp (F := Ideal) .f32 (RegionEntry.colBits m c))

/-- The grid has 16 points. -/
theorem point_lt (t : Fin cfg0.N) : t.val < 16 := lt_of_lt_of_eq t.isLt N_0

/-- The output column that column q of point t's block is. -/
def col (t : Fin cfg0.N) (q : Fin 1024) : Fin 16384 := ⟨t.val * 1024 + q.val, by have := point_lt t; have := q.isLt; omega⟩

/-- The printed index maps, decided over the 16 points: x and the row mask stay at block (0, 0); w moves down its rows
    with the point; the bias row, the column-mask row and the output move along their columns with the point. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-! ## Each input block read where the point's rectangle says -/

/-- The x block is all of x. -/
theorem x_block (c : Dev nD) (t : Fin cfg0.N) (p : Fin 4096) (k : Fin 512) :
    iblk m c 0 t (ix2 p k) = m ((c : Thread nD τ).loc main_arg0) (ix2 p k) := by
  obtain ⟨e0, e1, -⟩ := block_indices t
  show V m c main_arg0 (((cfg0.win 0).blk t).view.emb (ix2 p k)) = _
  rw [V_main_arg0]
  refine congrArg _ (funext fun a => Fin.ext ?_)
  match a with
  | ⟨0, _⟩ => show win0_0.index t (0 : Fin 2) * 4096 + 1 * p.val = p.val; omega
  | ⟨1, _⟩ => show win0_0.index t (1 : Fin 2) * 512 + 1 * k.val = k.val; omega

/-- Row q of the w block is row t·1024 + q of w. -/
theorem w_block (c : Dev nD) (t : Fin cfg0.N) (q : Fin 1024) (k : Fin 512) :
    iblk m c 1 t (ix2 q k) = m ((c : Thread nD τ).loc main_arg1) (ix2 (col t q) k) := by
  obtain ⟨-, -, e0, e1, -⟩ := block_indices t
  show V m c main_arg1 (((cfg0.win 1).blk t).view.emb (ix2 q k)) = _
  rw [V_main_arg1]
  refine congrArg _ (funext fun a => Fin.ext ?_)
  match a with
  | ⟨0, _⟩ => show win0_1.index t (0 : Fin 2) * 1024 + 1 * q.val = t.val * 1024 + q.val; omega
  | ⟨1, _⟩ => show win0_1.index t (1 : Fin 2) * 512 + 1 * k.val = k.val; omega

/-- Entry q of the bias block is the bias of column t·1024 + q. -/
theorem bias_block (c : Dev nD) (t : Fin cfg0.N) (q : Fin 1024) :
    iblk m c 2 t (ix2 (0 : Fin 1) q) = m ((c : Thread nD τ).loc main_arg2) (ix1 (col t q)) := by
  obtain ⟨-, -, -, -, e0, e1, -⟩ := block_indices t
  show V m c main_v30 (((cfg0.win 2).blk t).view.emb (ix2 (0 : Fin 1) q)) = _
  have e : ((cfg0.win 2).blk t).view.emb (ix2 (0 : Fin 1) q) = ix2 (0 : Fin 1) (col t q) := by
    funext a; apply Fin.ext
    match a with
    | ⟨0, _⟩ => show win0_2.index t (0 : Fin 2) * 1 + 1 * 0 = 0; omega
    | ⟨1, _⟩ => show win0_2.index t (1 : Fin 2) * 1024 + 1 * q.val = t.val * 1024 + q.val; omega
  rw [e]
  exact RegionEntry.bias_at m c (col t q)

/-- Entry p of the row-mask block is the row bit of p as a number. -/
theorem rowMask_block (c : Dev nD) (t : Fin cfg0.N) (p : Fin 4096) :
    iblk m c 3 t (ix2 p (0 : Fin 1)) = FloatOps.uitofp (F := Ideal) .f32 (RegionEntry.rowBits m c (ix1 p)) := by
  obtain ⟨-, -, -, -, -, -, e0, e1, -⟩ := block_indices t
  show V m c main_v19 (((cfg0.win 3).blk t).view.emb (ix2 p (0 : Fin 1))) = _
  have e : ((cfg0.win 3).blk t).view.emb (ix2 p (0 : Fin 1)) = ix2 p (0 : Fin 1) := by
    funext a; apply Fin.ext
    match a with
    | ⟨0, _⟩ => show win0_3.index t (0 : Fin 2) * 4096 + 1 * p.val = p.val; omega
    | ⟨1, _⟩ => show win0_3.index t (1 : Fin 2) * 1 + 1 * 0 = 0; omega
  rw [e]
  exact RegionEntry.rowMask_at m c p

/-- Entry q of the column-mask block is the column bit of t·1024 + q as a number. -/
theorem colMask_block (c : Dev nD) (t : Fin cfg0.N) (q : Fin 1024) :
    iblk m c 4 t (ix2 (0 : Fin 1) q) = FloatOps.uitofp (F := Ideal) .f32 (RegionEntry.colBits m c (ix1 (col t q))) := by
  obtain ⟨-, -, -, -, -, -, -, -, e0, e1, -⟩ := block_indices t
  show V m c main_v29 (((cfg0.win 4).blk t).view.emb (ix2 (0 : Fin 1) q)) = _
  have e : ((cfg0.win 4).blk t).view.emb (ix2 (0 : Fin 1) q) = ix2 (0 : Fin 1) (col t q) := by
    funext a; apply Fin.ext
    match a with
    | ⟨0, _⟩ => show win0_4.index t (0 : Fin 2) * 1 + 1 * 0 = 0; omega
    | ⟨1, _⟩ => show win0_4.index t (1 : Fin 2) * 1024 + 1 * q.val = t.val * 1024 + q.val; omega
  rw [e]
  exact RegionEntry.colMask_at m c (col t q)

/-! ## What a point writes back -/

/-- Entry (p, q) of the body's result at point t is entry (p, t·1024 + q) of the masked dense layer. -/
theorem block_entry (c : Dev nD) (t : Fin cfg0.N) (p : Fin 4096) (q : Fin 1024) :
    k0_pay1 (iblk m c 0 t) (iblk m c 1 t) (iblk m c 2 t) (iblk m c 3 t) (iblk m c 4 t) (ix2 p q)
      = result m c (ix2 p (col t q)) := by
  refine (BlockPayload.payload_apply (iblk m c 0 t) (iblk m c 1 t) (iblk m c 2 t) (iblk m c 3 t) (iblk m c 4 t) p q).trans ?_
  simp only [x_block, w_block, bias_block, rowMask_block, colMask_block]
  rfl

/-- What point t writes back is block t of the masked dense layer. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := block_indices t
  rw [Value.flushed5]
  unfold out0_5
  rw [View.canon_unit_zero origin]
  simp only [View.ld_unit_zero (S := S4096x512) origin, View.ld_unit_zero (S := S1024x512) origin,
    View.ld_unit_zero (S := S1x1024) origin, View.ld_unit_zero (S := S4096x1) origin]
  funext j
  show k0_pay1 (iblk m c 0 t) (iblk m c 1 t) (iblk m c 2 t) (iblk m c 3 t) (iblk m c 4 t) j
    = result m c (((cfg0.win 5).blk t).view.emb j)
  have ee : ((cfg0.win 5).blk t).view.emb j = ix2 (j 0) (col t (j 1)) := by
    funext a; apply Fin.ext
    match a with
    | ⟨0, _⟩ => show win0_5.index t (0 : Fin 2) * 4096 + 1 * (j 0).val = (j 0).val; omega
    | ⟨1, _⟩ => show win0_5.index t (1 : Fin 2) * 1024 + 1 * (j 1).val = t.val * 1024 + (j 1).val; omega
  rw [ee]
  exact (congrArg (k0_pay1 (iblk m c 0 t) (iblk m c 1 t) (iblk m c 2 t) (iblk m c 3 t) (iblk m c 4 t)) (eq_ix2 j)).trans
    (block_entry m c t (j 0) (j 1))

/-! ## The blocks tile the array -/

/-- An index is in point t's block iff each coordinate is in the block's range on its axis. -/
theorem mem_block (t : Fin cfg0.N) (i : S4096x16384.Idx) :
    i ∈ ((cfg0.win 5).blk t).view.set ↔ ∀ a : Fin 2, win0_5.index t a * S4096x1024.size a ≤ (i a).val
      ∧ (i a).val < win0_5.index t a * S4096x1024.size a + S4096x1024.size a := by
  show i ∈ ((View.whole main_v31).slice (win0_5.rect t)).set ↔ _
  rw [View.set_slice_whole, Rect.mem_set_unit]
  exact Iff.rfl

/-- Every index of the output lies in the block of the point its column selects. -/
theorem covered (i : S4096x16384.Idx) :
    ∃ t : Fin cfg0.N, (cfg0.win 5).flush t = true ∧ i ∈ ((cfg0.win 5).blk t).view.set := by
  have hi0 : (i 0).val < 4096 := (i 0).isLt
  have hi1 : (i 1).val < 16384 := (i 1).isLt
  have ht : (i 1).val / 1024 < cfg0.N := lt_of_lt_of_eq (by omega) N_0.symm
  obtain ⟨-, -, -, -, -, -, -, -, -, -, e0, e1⟩ := block_indices ⟨(i 1).val / 1024, ht⟩
  have e1' : win0_5.index ⟨(i 1).val / 1024, ht⟩ (1 : Fin 2) = (i 1).val / 1024 := e1
  refine ⟨⟨(i 1).val / 1024, ht⟩, flush0_5 _, ?_⟩
  rw [mem_block]
  intro a
  match a with
  | ⟨0, _⟩ =>
    show win0_5.index ⟨(i 1).val / 1024, ht⟩ (0 : Fin 2) * 4096 ≤ (i 0).val
      ∧ (i 0).val < win0_5.index ⟨(i 1).val / 1024, ht⟩ (0 : Fin 2) * 4096 + 4096
    omega
  | ⟨1, _⟩ =>
    show win0_5.index ⟨(i 1).val / 1024, ht⟩ (1 : Fin 2) * 1024 ≤ (i 1).val
      ∧ (i 1).val < win0_5.index ⟨(i 1).val / 1024, ht⟩ (1 : Fin 2) * 1024 + 1024
    omega

/-! ## The array after the run -/

/-- After the run the output array is the masked dense layer of the launched arguments. -/
theorem final (c : Dev nD) : (dats m 0 c).arrAt 5 cfg0.N = result m c :=
  (dats m 0 c).arrAt_eq_of_cover 5 (result m c) (fun t _ => flushed_eq m c t) covered

/-- The kernel's run: every weakly fair execution terminates with the result array at the masked dense layer of the
    arguments and the arguments unchanged. -/
theorem run : θ_run defs (onTc (τ := τ) (main (F := Ideal))) ⟨m, fun _ => 0, ρ⟩ fun r => ∀ c : Dev nD,
      r.2.mem ((c : Thread nD τ).loc main_v31) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.FinalArray

end
-- ==== Proof.ReferenceEntries.lean ====
/-
  The reference's result, entry by entry, is the masked dense layer. Its last operations are: the product of x with the
  transpose of w, the bias spread over the rows, the row mask (one bit per input row, spread over the columns and read
  as 0 or 1) and the column mask (one bit per output column, spread over the rows). Entry (p, n) is therefore
  ((∑ₖ x(p, k) · w(n, k) + b(n)) · rowMask p) · colMask n, which is the specification by associativity of the product.
  The two masks stay the stages that compute them (the routing softmax, its threshold and the two unions): nothing
  about their values is needed.
-/
import proofs.«166657_j29128468201623_2_alg».proof.Proof.Gen.ReferenceIdeal.Read
import proofs.«166657_j29128468201623_2_alg».proof.Proof.MaskedLinear

noncomputable section

namespace Cert.ReferenceIdeal.Entries

open Cert.ReferenceIdeal Cert.ReferenceIdeal.Gen Cert.ReferenceIdeal.Read Idealize.ShloMosaic Idealize.ShloMosaic.TcCoe
  Idealize.ShloMosaic.ValueIdx Cert.MaskedLinear

/-- The left operand of the product is read at (p, k). -/
theorem lhs_at (i : S4096x16384.Idx) (k : Fin 512) : lidx_main_v27 i k = ix2 (i 0) k :=
  funext fun a => Fin.ext (by match a with | ⟨0, _⟩ => rfl | ⟨1, _⟩ => rfl)

/-- The transposed right operand at (k, n) is w at (n, k). -/
theorem rhs_at (i : S4096x16384.Idx) (k : Fin 512) : idx_main_v26 (ridx_main_v27 i k) = ix2 (i 1) k :=
  funext fun a => Fin.ext (by match a with | ⟨0, _⟩ => rfl | ⟨1, _⟩ => rfl)

/-- The bias spread over the rows is read at the entry's column. -/
theorem bias_at (i : S4096x16384.Idx) : idx_main_v28 (idx_main_v29 i) = ix1 (i 1) :=
  funext fun a => Fin.ext (by match a with | ⟨0, _⟩ => rfl)

/-- The row mask spread over the columns is read at the entry's row. -/
theorem rowMask_at (i : S4096x16384.Idx) : idx_main_v31 (idx_main_v33 i) = ix1 (i 0) :=
  funext fun a => Fin.ext (by match a with | ⟨0, _⟩ => rfl)

/-- The column mask spread over the rows is read at the entry's column. -/
theorem colMask_at (i : S4096x16384.Idx) : idx_main_v35 (idx_main_v37 i) = ix1 (i 1) :=
  funext fun a => Fin.ext (by match a with | ⟨0, _⟩ => rfl)

/-- The reference's result is the masked dense layer of its arguments, with the masks its own routing stages. -/
theorem result_eq (x : (⟨S4096x512, .f32⟩ : BufTy).Contents (Elt Ideal)) (w : (⟨S16384x512, .f32⟩ : BufTy).Contents (Elt Ideal))
    (b : (⟨S16384, .f32⟩ : BufTy).Contents (Elt Ideal)) (cen : (⟨S256x512, .f32⟩ : BufTy).Contents (Elt Ideal))
    (asg : (⟨S16384, .i32⟩ : BufTy).Contents (Elt Ideal)) :
    val_main_v38 (F := Ideal) x w b cen asg
      = maskedLinear x w b (uitofp .f32 (val_main_v17 (F := Ideal) x cen)) (uitofp .f32 (val_main_v25 (F := Ideal) x cen asg)) := by
  funext i
  rw [val_main_v38_apply, val_main_v34_apply, val_main_v30_apply, val_main_v27_apply, val_main_v29_apply, val_main_v28_apply,
    val_main_v33_apply, val_main_v32_apply, val_main_v31_apply, val_main_v37_apply, val_main_v36_apply, val_main_v35_apply]
  simp only [val_main_v26_apply, lhs_at, rhs_at, bias_at, rowMask_at, colMask_at, Ideal.mulf_def, Ideal.addf_def]
  exact scale_twice _ _ _

end Cert.ReferenceIdeal.Entries

end
-- ==== Proof.lean ====
/-
  A masked dense layer with routing, kernel against reference, on the extended reals.

  Both programs first route: the softmax over the centroid similarities x·centroidsᵀ / 0.1 is compared with the threshold,
  giving one decision bit per (input row, cluster); the row union of these bits says which input rows are active, the
  column union which clusters are, and an output column takes the bit of the cluster it is assigned to. The two programs
  compute these bits by the same operations in the same order, so the bits are one term on both sides and their values
  never matter here.

  The dense layer is x·wᵀ + b. The reference multiplies it by the row mask and then by the column mask; the kernel forms
  the product of the two masks for a block of 1024 output columns and multiplies once, 16 blocks tiling the columns.
  Entry (p, n) is (∑ₖ x(p, k)·w(n, k) + b(n))·(rowMask p · colMask n) on one side and
  ((∑ₖ x(p, k)·w(n, k) + b(n))·rowMask p)·colMask n on the other: equal by associativity of the product on the extended
  reals, which needs no finiteness, so the precondition is not used for the value. The kernel narrows x and w before its
  product; on ideal values that is the identity, and a product accumulated into zero is the plain sum.

  The three frames are the generated ones (the reference's is its generated run with the result dropped). The idealized
  kernel is the kernel's own text read on the extended reals, no operation rewritten, so that conjunct is trivial.
-/
import proofs.«166657_j29128468201623_2_alg».proof.Defs
import proofs.«166657_j29128468201623_2_alg».proof.Proof.Gen.Kernel
import proofs.«166657_j29128468201623_2_alg».proof.Proof.Gen.Kernel.Skeleton
import proofs.«166657_j29128468201623_2_alg».proof.Proof.Gen.Kernel.Launch
import proofs.«166657_j29128468201623_2_alg».proof.Proof.Gen.Kernel.Points
import proofs.«166657_j29128468201623_2_alg».proof.Proof.Gen.Kernel.Frame
import proofs.«166657_j29128468201623_2_alg».proof.Proof.Gen.KernelIdeal
import proofs.«166657_j29128468201623_2_alg».proof.Proof.Gen.KernelIdeal.Skeleton
import proofs.«166657_j29128468201623_2_alg».proof.Proof.Gen.KernelIdeal.Launch
import proofs.«166657_j29128468201623_2_alg».proof.Proof.Gen.KernelIdeal.Points
import proofs.«166657_j29128468201623_2_alg».proof.Proof.Gen.KernelIdeal.Frame
import proofs.«166657_j29128468201623_2_alg».proof.Proof.Gen.ReferenceIdeal
import proofs.«166657_j29128468201623_2_alg».proof.Proof.Gen.Pre_finite_inputs
import proofs.«166657_j29128468201623_2_alg».proof.Proof.Gen.KernelIdeal.Value
import proofs.«166657_j29128468201623_2_alg».proof.Proof.Gen.ReferenceIdeal.Run
import proofs.«166657_j29128468201623_2_alg».proof.Proof.Gen.ReferenceIdeal.Read
import proofs.«166657_j29128468201623_2_alg».proof.Proof.FinalArray
import proofs.«166657_j29128468201623_2_alg».proof.Proof.ReferenceEntries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the masked dense layer of those arguments: the
    kernel's array block by block, the reference's by its operations read at an entry, with the same routing bits. -/
theorem algebraic : Cert.algebraic_KernelIdeal_ReferenceIdeal := by
  intro m ρ m' ρ' _ hagree
  refine ⟨fun c => Cert.KernelIdeal.FinalArray.result m c, Cert.KernelIdeal.FinalArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.Entries.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
